-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50257 : Shape := ⟨2, ![1024, 50257]⟩
abbrev S128x128 : Shape := ⟨2, ![128, 128]⟩
abbrev S50257x128 : Shape := ⟨2, ![50257, 128]⟩
abbrev S_ : Shape := ⟨0, ![]⟩

class Facts : Prop where
  bcast_S_S1024x50257 : S_.BroadcastsInDim S1024x50257 (![] : Fin 0 → Fin S1024x50257.rank)
  reducesTo_S1024x50257_S_d0_1 : S1024x50257.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S50257x128 : S_.BroadcastsInDim S50257x128 (![] : Fin 0 → Fin S50257x128.rank)
  reducesTo_S50257x128_S_d0_1 : S50257x128.ReducesTo [0, 1] S_

variable [Facts]

def fn_part1 {F : FTy → Type} [FloatOps F] (main_v13 : IVec S_ 1) (main_v16 : IVec S50257x128 1) : IVec S_ 1 :=
  let main_c_5 : IVec S_ 1 := constantI S_ 1 1#1
  let main_v17 : IVec S_ 1 := (fun x v => Host.reduce IntOp.andi x v reducesTo_S50257x128_S_d0_1 h_S_) main_v16 main_c_5
  let main_v18 : IVec S_ 1 := andi main_v13 main_v17
  main_v18

def fn {F : FTy → Type} [FloatOps F] (main_arg0 : FVec F S1024x50257 .f32) (main_arg1 : FVec F S128x128 .f32) (main_arg2 : FVec F S50257x128 .f32) (main_arg3 : FVec F S50257x128 .f32) : IVec S_ 1 :=
  let main_v0 : FVec F S1024x50257 .f32 := Host.absf main_arg0
  let main_cst : FVec F S_ .f32 := constant S_ .f32 0x7F800000#32
  let main_v1 : FVec F S1024x50257 .f32 := broadcastInDim S1024x50257 ![] bcast_S_S1024x50257 main_cst
  let main_v2 : IVec S1024x50257 1 := cmpf .olt main_v0 main_v1
  let main_c : IVec S_ 1 := constantI S_ 1 1#1
  let main_v3 : IVec S_ 1 := (fun x v => Host.reduce IntOp.andi x v reducesTo_S1024x50257_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S50257x128 .f32 := Host.absf main_arg2
  let main_cst_2 : FVec F S_ .f32 := constant S_ .f32 0x7F800000#32
  let main_v10 : FVec F S50257x128 .f32 := broadcastInDim S50257x128 ![] bcast_S_S50257x128 main_cst_2
  let main_v11 : IVec S50257x128 1 := cmpf .olt main_v9 main_v10
  let main_c_3 : IVec S_ 1 := constantI S_ 1 1#1
  let main_v12 : IVec S_ 1 := (fun x v => Host.reduce IntOp.andi x v reducesTo_S50257x128_S_d0_1 h_S_) main_v11 main_c_3
  let main_v13 : IVec S_ 1 := andi main_v8 main_v12
  let main_v14 : FVec F S50257x128 .f32 := Host.absf main_arg3
  let main_cst_4 : FVec F S_ .f32 := constant S_ .f32 0x7F800000#32
  let main_v15 : FVec F S50257x128 .f32 := broadcastInDim S50257x128 ![] bcast_S_S50257x128 main_cst_4
  let main_v16 : IVec S50257x128 1 := cmpf .olt main_v14 main_v15
  fn_part1 (F := F) main_v13 main_v16
-- ==== Kernel.lean ====
abbrev S1024x50257 : Shape := ⟨2, ![1024, 50257]⟩
abbrev S128x128 : Shape := ⟨2, ![128, 128]⟩
abbrev S50257x128 : Shape := ⟨2, ![50257, 128]⟩
abbrev S8x50257 : Shape := ⟨2, ![8, 50257]⟩
abbrev S8x128 : Shape := ⟨2, ![8, 128]⟩
abbrev S8 : Shape := ⟨1, ![8]⟩
abbrev S8x1 : Shape := ⟨2, ![8, 1]⟩

abbrev nBuf : Space → Nat
  | .hbm => 8
  | .vmem => 7
  | .smem => 0
  | _ => 0

abbrev bufTy : (tb : Table) → Fin (tcTables nBuf tb) → BufTy
  | .hbm, ⟨0, _⟩ => ⟨S1024x50257, .f32⟩
  | .hbm, ⟨1, _⟩ => ⟨S128x128, .f32⟩
  | .hbm, ⟨2, _⟩ => ⟨S50257x128, .f32⟩
  | .hbm, ⟨3, _⟩ => ⟨S50257x128, .f32⟩
  | .hbm, ⟨4, _⟩ => ⟨S50257x128, .bf16⟩
  | .hbm, ⟨5, _⟩ => ⟨S50257x128, .bf16⟩
  | .hbm, ⟨6, _⟩ => ⟨S128x128, .bf16⟩
  | .hbm, ⟨7, _⟩ => ⟨S1024x50257, .f32⟩
  | .local _ .vmem, ⟨0, _⟩ => ⟨S8x50257, .f32⟩
  | .local _ .vmem, ⟨1, _⟩ => ⟨S8x50257, .f32⟩
  | .local _ .vmem, ⟨2, _⟩ => ⟨S50257x128, .bf16⟩
  | .local _ .vmem, ⟨3, _⟩ => ⟨S128x128, .bf16⟩
  | .local _ .vmem, ⟨4, _⟩ => ⟨S50257x128, .bf16⟩
  | .local _ .vmem, ⟨5, _⟩ => ⟨S8x50257, .f32⟩
  | .local _ .vmem, ⟨6, _⟩ => ⟨S8x50257, .f32⟩
  | _, _ => ⟨S1024x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50257x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50257x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x50257 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S8x50257_S8x50257_0_0 : ∀ a, (![0, 0] : Fin 2 → Nat) a + S8x50257.size a ≤ S8x50257.size a
  h_S8x50257 : 0 < S8x50257.numel
  inb_S50257x128_S50257x128_0_0 : ∀ a, (![0, 0] : Fin 2 → Nat) a + S50257x128.size a ≤ S50257x128.size a
  h_S50257x128 : 0 < S50257x128.numel
  shapeCasts_S50257x128_S50257x128 : S50257x128.ShapeCasts S50257x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8x50257_S8 : S8x50257.Reduces [1] S8
  shapeCasts_S8_S8x1 : S8.ShapeCasts S8x1
  broadcasts_S8x1_S8x50257 : S8x1.Broadcasts S8x50257
  dot_S8x50257_S50257x128_S8x128_1_0_0_1_n_n_wf : DotDims.WF S8x50257 S50257x128 S8x128 [1] [0] [0] [1] [] []
  dot_S8x128_S128x128_S8x128_1_0_0_1_n_n_wf : DotDims.WF S8x128 S128x128 S8x128 [1] [0] [0] [1] [] []
  dot_S8x128_S50257x128_S8x50257_1_1_0_0_n_n_wf : DotDims.WF S8x128 S50257x128 S8x50257 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x50257.size a ≤ S1024x50257.size a
  hwx0_0 : ∀ i : grid0.Coords, EltTy.bits .f32 = 32 ∨ (Rect.block (s := S1024x50257) S8x50257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50257x128.size a ≤ S50257x128.size a
  hwx0_1 : ∀ i : grid0.Coords, EltTy.bits .bf16 = 32 ∨ (Rect.block (s := S50257x128) S50257x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50257x128.size a ≤ S50257x128.size a
  hwx0_3 : ∀ i : grid0.Coords, EltTy.bits .bf16 = 32 ∨ (Rect.block (s := S50257x128) S50257x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x50257.size a ≤ S1024x50257.size a
  hwx0_4 : ∀ i : grid0.Coords, EltTy.bits .f32 = 32 ∨ (Rect.block (s := S1024x50257) S8x50257.size (cc0_transform_4 i) (hinb0_4 i)).WholeWords (EltTy.packing .f32)

variable [Facts₀]

def dot_S8x50257_S50257x128_S8x128_1_0_0_1_n_n : DotDims S8x50257 S50257x128 S8x128 where
  lhsContracting := [1]
  rhsContracting := [0]
  lhsNonContracting := [0]
  rhsNonContracting := [1]
  lhsBatch := []
  rhsBatch := []
  wf := dot_S8x50257_S50257x128_S8x128_1_0_0_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S50257x128_S8x50257_1_1_0_0_n_n : DotDims S8x128 S50257x128 S8x50257 where
  lhsContracting := [1]
  rhsContracting := [1]
  lhsNonContracting := [0]
  rhsNonContracting := [0]
  lhsBatch := []
  rhsBatch := []
  wf := dot_S8x128_S50257x128_S8x50257_1_1_0_0_n_n_wf

abbrev win0_0 : Pipeline.Window sig grid0 :=
  Pipeline.Window.ofSpec (Memref.whole main_arg0) S8x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S50257x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S50257x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x50257.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x50257 : Shape := ⟨2, ![1024, 50257]⟩
abbrev S128x128 : Shape := ⟨2, ![128, 128]⟩
abbrev S50257x128 : Shape := ⟨2, ![50257, 128]⟩
abbrev S1024x128 : Shape := ⟨2, ![1024, 128]⟩
abbrev S128x50257 : Shape := ⟨2, ![128, 50257]⟩
abbrev S_ : Shape := ⟨0, ![]⟩
abbrev S1024 : Shape := ⟨1, ![1024]⟩
abbrev S1024x1 : Shape := ⟨2, ![1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x50257, .f32⟩
  | .hbm, ⟨1, _⟩ => ⟨S128x128, .f32⟩
  | .hbm, ⟨2, _⟩ => ⟨S50257x128, .f32⟩
  | .hbm, ⟨3, _⟩ => ⟨S50257x128, .f32⟩
  | .hbm, ⟨4, _⟩ => ⟨S1024x128, .f32⟩
  | .hbm, ⟨5, _⟩ => ⟨S1024x128, .f32⟩
  | .hbm, ⟨6, _⟩ => ⟨S128x50257, .f32⟩
  | .hbm, ⟨7, _⟩ => ⟨S1024x50257, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1024x50257, .f32⟩
  | .hbm, ⟨15, _⟩ => ⟨S1024x50257, .f32⟩
  | .hbm, ⟨16, _⟩ => ⟨S1024x50257, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x1, .f32⟩
  | .hbm, ⟨21, _⟩ => ⟨S1024x50257, .f32⟩
  | .hbm, ⟨22, _⟩ => ⟨S1024x50257, .f32⟩
  | _, _ => ⟨S1024x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩

abbrev nD : Nat := 1
abbrev τ : Topo := Topo.v7x

variable {F : FTy → Type} [FloatOps F]

class Facts₀ : Prop where
  transposes_S50257x128_S128x50257_1_0 : S50257x128.Transposes [1, 0] S128x50257
  reducesTo_S1024x50257_S1024_d1 : S1024x50257.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x50257_0_1 : S1024x1.BroadcastsInDim S1024x50257 (![0, 1] : Fin 2 → Fin S1024x50257.rank)
  dot_S1024x50257_S50257x128_S1024x128_1_0_0_1_n_n_wf : DotDims.WF S1024x50257 S50257x128 S1024x128 [1] [0] [0] [1] [] []
  dot_S1024x128_S128x128_S1024x128_1_0_0_1_n_n_wf : DotDims.WF S1024x128 S128x128 S1024x128 [1] [0] [0] [1] [] []
  dot_S1024x128_S128x50257_S1024x50257_1_0_0_1_n_n_wf : DotDims.WF S1024x128 S128x50257 S1024x50257 [1] [0] [0] [1] [] []

variable [Facts₀]

def dot_S1024x50257_S50257x128_S1024x128_1_0_0_1_n_n : DotDims S1024x50257 S50257x128 S1024x128 where
  lhsContracting := [1]
  rhsContracting := [0]
  lhsNonContracting := [0]
  rhsNonContracting := [1]
  lhsBatch := []
  rhsBatch := []
  wf := dot_S1024x50257_S50257x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x50257_S1024x50257_1_0_0_1_n_n : DotDims S1024x128 S128x50257 S1024x50257 where
  lhsContracting := [1]
  rhsContracting := [0]
  lhsNonContracting := [0]
  rhsNonContracting := [1]
  lhsBatch := []
  rhsBatch := []
  wf := dot_S1024x128_S128x50257_S1024x50257_1_0_0_1_n_n_wf

class Facts : Prop extends Facts₀ where

variable [Facts]
-- ==== Proof.SkipGramScores.lean ====
/-
  The value both programs compute, stated once over the extended reals.

  V = 50257 words, D = 128 embedding coordinates. For one row `x` of the input (a one-hot row in practice; any
  extended reals here), an embedding table `E : [V, D]`, a metric `M : [D, D]` and a second table `N : [V, D]`:

    e l = ∑ v, x v · E (v, l)        the row of the input times the embedding table,
    q k = ∑ l, e l · M (l, k)        that row times the metric,
    s j = ∑ k, q k · N (j, k)        its scores against every row of the second table,

  and the result row is the log-softmax of the scores,

    out j = (s j − μ) − log (∑ j', exp (s j' − μ)),     μ = the maximum of the row, folded from −∞.

  Every sum is a finite sum in the commutative monoid of extended reals under addition, so neither its order nor its
  grouping matters; nothing here distributes a product over a sum or cancels, so no entry has to be finite.
-/
import Idealize.ShloMosaic.PureOps.Ideal
import Idealize.ShloMosaic.Lib.ValueIdx
import Mathlib.Data.Finset.Fold

noncomputable section

namespace Cert.SkipGram

open Idealize.ShloMosaic Idealize.ShloMosaic.ValueIdx
open scoped BigOperators

/-- A table with one row of 128 coordinates per word. -/
abbrev Table : Type := (⟨2, ![50257, 128]⟩ : Shape).Idx → EReal
/-- The 128 × 128 metric. -/
abbrev Metric : Type := (⟨2, ![128, 128]⟩ : Shape).Idx → EReal
/-- 1024 rows over the 50257 words: the input, and the result. -/
abbrev Rows : Type := (⟨2, ![1024, 50257]⟩ : Shape).Idx → EReal

/-- Coordinate `l` of the row `x` times the embedding table. -/
def embedRow (x : Fin 50257 → EReal) (E : Table) (l : Fin 128) : EReal :=
  ∑ v : Fin 50257, x v * E (ix2 v l)

/-- Coordinate `k` of that row times the metric. -/
def metricRow (x : Fin 50257 → EReal) (E : Table) (M : Metric) (k : Fin 128) : EReal :=
  ∑ l : Fin 128, embedRow x E l * M (ix2 l k)

/-- The score of word `j`: the metric row against row `j` of the second table. -/
def scoreRow (x : Fin 50257 → EReal) (E : Table) (M : Metric) (N : Table) (j : Fin 50257) : EReal :=
  ∑ k : Fin 128, metricRow x E M k * N (ix2 j k)

/-- The maximum of a row of scores, folded from the f32 pattern of −∞. -/
def rowMax (s : Fin 50257 → EReal) : EReal :=
  (Finset.univ : Finset (Fin 50257)).fold max (Ideal.ofBits .f32 0xFF800000#32) s

/-- The log-softmax of a row of scores, in the shifted form both programs use. -/
def logSoftmaxRow (s : Fin 50257 → EReal) (j : Fin 50257) : EReal :=
  (s j - rowMax s) - Ideal.log (∑ k : Fin 50257, Ideal.exp (s k - rowMax s))

/-- The whole result: row `r` is the log-softmax of the scores of row `r` of the input. -/
def result (X : Rows) (M : Metric) (E N : Table) : Rows :=
  fun i => logSoftmaxRow (scoreRow (fun v => X (ix2 (i 0) v)) E M N) (i 1)

/-- A maximum folded from a starting value is at least that value, so taking the maximum with the starting value
    once more changes nothing. -/
theorem max_start_rowMax (s : Fin 50257 → EReal) :
    max (Ideal.ofBits .f32 0xFF800000#32) (rowMax s) = rowMax s :=
  max_eq_right ((Finset.le_fold_max _).mpr (Or.inl le_rfl))

end Cert.SkipGram

end
-- ==== Proof.LibKeepdimsColumn.lean ====
/-
  A vector kept as a column and broadcast along the rows' other axis, read at an index.

  A reduction over the last axis of an `[a, b]` array with `keepdims` leaves a length-`a` vector that is first viewed as
  an `[a, 1]` column (a shape cast: the row-major position of `(i, 0)` among `a × 1` is `i`) and then broadcast to
  `[a, b]` (every entry of row `p` is the column's entry `p`). Composed: the entry at `(p, c)` is the vector's entry `p`.
-/
import Idealize.ShloMosaic.Lib.Pipeline.Value
import Idealize.ShloMosaic.Lib.ValueIdx

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the first step: an `[a]` array broadcast in dimension 0 to `[a, 1]` reads, at `(i, u)`, the
    operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's spelling of the second step: an `[a, 1]` column broadcast in dimensions 0, 1 to `[a, b]` reads, at
    `(p, c)`, the column's entry `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector kept as a column and broadcast over `b` columns reads, at `(p, c)`, the vector's entry `p`. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Idealize.ShloMosaic.KeepdimsColumn
-- ==== Proof.KernelRow.lean ====
/-
  One row of the kernel body's result, read at an index.

  The body loads an 8-row block `x` of the input and the three whole tables, and stores
  `log_softmax (((x · E) · M) · Nᵀ)` row by row: three products into zero accumulators (the narrowing of each operand to
  bf16 is the identity on extended reals), the row maximum, the shifted scores, their exponentials summed along the row,
  the logarithm, the second shift. Read at row `p` and word `j` this is `logSoftmaxRow` of the scores of row `p`.
-/
import proofs.«128333_j60833916781031_2_alg».proof.Proof.Gen.KernelIdeal.Skeleton
import proofs.«128333_j60833916781031_2_alg».proof.Proof.SkipGramScores
import proofs.«128333_j60833916781031_2_alg».proof.Proof.LibKeepdimsColumn
import Idealize.ShloMosaic.Lib.Pipeline.Value
import Idealize.ShloMosaic.Lib.ValueIdx
import Idealize.ShloMosaic.PureOps.Ideal.Laws

noncomputable section

namespace Cert.SkipGram.KernelRow

open Cert.KernelIdeal Cert.KernelIdeal.Gen Idealize.ShloMosaic Idealize.ShloMosaic.ValueIdx Idealize.ShloMosaic.KeepdimsColumn
open Cert.SkipGram
open scoped BigOperators

/-! ## The three products, each entry a sum over the contracted coordinate -/

/-- The left operand's row coordinate is the output's. -/
theorem embed_lhs_row (i : S8x128.Idx) (c : dot_S8x50257_S50257x128_S8x128_1_0_0_1_n_n.contr.Idx) :
    (dot_S8x50257_S50257x128_S8x128_1_0_0_1_n_n.lhsIdx i c 0).val = (i 0).val := by
  unfold DotDims.lhsIdx
  rw [dif_neg (show ¬(0 : Fin S8x50257.rank) ∈ dot_S8x50257_S50257x128_S8x128_1_0_0_1_n_n.lhsBatch by decide), dif_pos (show (0 : Fin S8x50257.rank) ∈ dot_S8x50257_S50257x128_S8x128_1_0_0_1_n_n.lhsNonContracting by decide)]
  rfl
/-- The left operand's column coordinate is the contracted one. -/
theorem embed_lhs_col (i : S8x128.Idx) (c : dot_S8x50257_S50257x128_S8x128_1_0_0_1_n_n.contr.Idx) :
    (dot_S8x50257_S50257x128_S8x128_1_0_0_1_n_n.lhsIdx i c 1).val = (c ⟨0, by decide⟩).val :=
  dot_S8x50257_S50257x128_S8x128_1_0_0_1_n_n.lhsIdx_val_of_single rfl i c
/-- The right operand's contracted coordinate. -/
theorem embed_rhs_contr (i : S8x128.Idx) (c : dot_S8x50257_S50257x128_S8x128_1_0_0_1_n_n.contr.Idx) :
    (dot_S8x50257_S50257x128_S8x128_1_0_0_1_n_n.rhsIdx i c 0).val = (c ⟨0, by decide⟩).val :=
  dot_S8x50257_S50257x128_S8x128_1_0_0_1_n_n.rhsIdx_val_of_single rfl i c
/-- The right operand's free coordinate is the output's column. -/
theorem embed_rhs_free (i : S8x128.Idx) (c : dot_S8x50257_S50257x128_S8x128_1_0_0_1_n_n.contr.Idx) :
    (dot_S8x50257_S50257x128_S8x128_1_0_0_1_n_n.rhsIdx i c 1).val = (i 1).val := by
  unfold DotDims.rhsIdx
  rw [dif_neg (show ¬(1 : Fin S50257x128.rank) ∈ dot_S8x50257_S50257x128_S8x128_1_0_0_1_n_n.rhsBatch by decide), dif_pos (show (1 : Fin S50257x128.rank) ∈ dot_S8x50257_S50257x128_S8x128_1_0_0_1_n_n.rhsNonContracting by decide)]
  rfl
/-- The block times the embedding table: entry `(p, q)` sums row `p` of the block against column `q` of the table. -/
theorem embed_apply {φ₁ φ₂ : FTy} (a : FVec Ideal S8x50257 φ₁) (b : FVec Ideal S50257x128 φ₂) (p : Fin 8) (q : Fin 128) :
    matmul dot_S8x50257_S50257x128_S8x128_1_0_0_1_n_n none a b (constant (F := Ideal) S8x128 .f32 0x00000000#32) (ix2 p q) = ∑ k : Fin 50257, a (ix2 p k) * b (ix2 k q) := by
  simp only [matmul]
  rw [Ideal.matmul_constant_zero_apply, ← Equiv.sum_comp (contrEquiv1 dot_S8x50257_S50257x128_S8x128_1_0_0_1_n_n 50257 rfl rfl).symm]
  refine Finset.sum_congr rfl fun k _ => ?_
  have hk := contrEquiv1_symm_val dot_S8x50257_S50257x128_S8x128_1_0_0_1_n_n 50257 rfl rfl k
  have el : dot_S8x50257_S50257x128_S8x128_1_0_0_1_n_n.lhsIdx (ix2 p q) ((contrEquiv1 dot_S8x50257_S50257x128_S8x128_1_0_0_1_n_n 50257 rfl rfl).symm k) = ix2 p k := funext fun ax => Fin.ext (by
    match ax with
    | ⟨0, _⟩ => exact embed_lhs_row _ _
    | ⟨1, _⟩ => exact (embed_lhs_col _ _).trans hk)
  have er : dot_S8x50257_S50257x128_S8x128_1_0_0_1_n_n.rhsIdx (ix2 p q) ((contrEquiv1 dot_S8x50257_S50257x128_S8x128_1_0_0_1_n_n 50257 rfl rfl).symm k) = ix2 k q := funext fun ax => Fin.ext (by
    match ax with
    | ⟨0, _⟩ => exact (embed_rhs_contr _ _).trans hk
    | ⟨1, _⟩ => exact embed_rhs_free _ _)
  rw [el, er]

/-- The left operand's row coordinate is the output's. -/
theorem metric_lhs_row (i : S8x128.Idx) (c : dot_S8x128_S128x128_S8x128_1_0_0_1_n_n.contr.Idx) :
    (dot_S8x128_S128x128_S8x128_1_0_0_1_n_n.lhsIdx i c 0).val = (i 0).val := by
  unfold DotDims.lhsIdx
  rw [dif_neg (show ¬(0 : Fin S8x128.rank) ∈ dot_S8x128_S128x128_S8x128_1_0_0_1_n_n.lhsBatch by decide), dif_pos (show (0 : Fin S8x128.rank) ∈ dot_S8x128_S128x128_S8x128_1_0_0_1_n_n.lhsNonContracting by decide)]
  rfl
/-- The left operand's column coordinate is the contracted one. -/
theorem metric_lhs_col (i : S8x128.Idx) (c : dot_S8x128_S128x128_S8x128_1_0_0_1_n_n.contr.Idx) :
    (dot_S8x128_S128x128_S8x128_1_0_0_1_n_n.lhsIdx i c 1).val = (c ⟨0, by decide⟩).val :=
  dot_S8x128_S128x128_S8x128_1_0_0_1_n_n.lhsIdx_val_of_single rfl i c
/-- The right operand's contracted coordinate. -/
theorem metric_rhs_contr (i : S8x128.Idx) (c : dot_S8x128_S128x128_S8x128_1_0_0_1_n_n.contr.Idx) :
    (dot_S8x128_S128x128_S8x128_1_0_0_1_n_n.rhsIdx i c 0).val = (c ⟨0, by decide⟩).val :=
  dot_S8x128_S128x128_S8x128_1_0_0_1_n_n.rhsIdx_val_of_single rfl i c
/-- The right operand's free coordinate is the output's column. -/
theorem metric_rhs_free (i : S8x128.Idx) (c : dot_S8x128_S128x128_S8x128_1_0_0_1_n_n.contr.Idx) :
    (dot_S8x128_S128x128_S8x128_1_0_0_1_n_n.rhsIdx i c 1).val = (i 1).val := by
  unfold DotDims.rhsIdx
  rw [dif_neg (show ¬(1 : Fin S128x128.rank) ∈ dot_S8x128_S128x128_S8x128_1_0_0_1_n_n.rhsBatch by decide), dif_pos (show (1 : Fin S128x128.rank) ∈ dot_S8x128_S128x128_S8x128_1_0_0_1_n_n.rhsNonContracting by decide)]
  rfl
/-- Times the metric: entry `(p, q)` sums row `p` against column `q` of the metric. -/
theorem metric_apply {φ₁ φ₂ : FTy} (a : FVec Ideal S8x128 φ₁) (b : FVec Ideal S128x128 φ₂) (p : Fin 8) (q : Fin 128) :
    matmul dot_S8x128_S128x128_S8x128_1_0_0_1_n_n none a b (constant (F := Ideal) S8x128 .f32 0x00000000#32) (ix2 p q) = ∑ k : Fin 128, a (ix2 p k) * b (ix2 k q) := by
  simp only [matmul]
  rw [Ideal.matmul_constant_zero_apply, ← Equiv.sum_comp (contrEquiv1 dot_S8x128_S128x128_S8x128_1_0_0_1_n_n 128 rfl rfl).symm]
  refine Finset.sum_congr rfl fun k _ => ?_
  have hk := contrEquiv1_symm_val dot_S8x128_S128x128_S8x128_1_0_0_1_n_n 128 rfl rfl k
  have el : dot_S8x128_S128x128_S8x128_1_0_0_1_n_n.lhsIdx (ix2 p q) ((contrEquiv1 dot_S8x128_S128x128_S8x128_1_0_0_1_n_n 128 rfl rfl).symm k) = ix2 p k := funext fun ax => Fin.ext (by
    match ax with
    | ⟨0, _⟩ => exact metric_lhs_row _ _
    | ⟨1, _⟩ => exact (metric_lhs_col _ _).trans hk)
  have er : dot_S8x128_S128x128_S8x128_1_0_0_1_n_n.rhsIdx (ix2 p q) ((contrEquiv1 dot_S8x128_S128x128_S8x128_1_0_0_1_n_n 128 rfl rfl).symm k) = ix2 k q := funext fun ax => Fin.ext (by
    match ax with
    | ⟨0, _⟩ => exact (metric_rhs_contr _ _).trans hk
    | ⟨1, _⟩ => exact metric_rhs_free _ _)
  rw [el, er]

/-- The left operand's row coordinate is the output's. -/
theorem score_lhs_row (i : S8x50257.Idx) (c : dot_S8x128_S50257x128_S8x50257_1_1_0_0_n_n.contr.Idx) :
    (dot_S8x128_S50257x128_S8x50257_1_1_0_0_n_n.lhsIdx i c 0).val = (i 0).val := by
  unfold DotDims.lhsIdx
  rw [dif_neg (show ¬(0 : Fin S8x128.rank) ∈ dot_S8x128_S50257x128_S8x50257_1_1_0_0_n_n.lhsBatch by decide), dif_pos (show (0 : Fin S8x128.rank) ∈ dot_S8x128_S50257x128_S8x50257_1_1_0_0_n_n.lhsNonContracting by decide)]
  rfl
/-- The left operand's column coordinate is the contracted one. -/
theorem score_lhs_col (i : S8x50257.Idx) (c : dot_S8x128_S50257x128_S8x50257_1_1_0_0_n_n.contr.Idx) :
    (dot_S8x128_S50257x128_S8x50257_1_1_0_0_n_n.lhsIdx i c 1).val = (c ⟨0, by decide⟩).val :=
  dot_S8x128_S50257x128_S8x50257_1_1_0_0_n_n.lhsIdx_val_of_single rfl i c
/-- The right operand's contracted coordinate. -/
theorem score_rhs_contr (i : S8x50257.Idx) (c : dot_S8x128_S50257x128_S8x50257_1_1_0_0_n_n.contr.Idx) :
    (dot_S8x128_S50257x128_S8x50257_1_1_0_0_n_n.rhsIdx i c 1).val = (c ⟨0, by decide⟩).val :=
  dot_S8x128_S50257x128_S8x50257_1_1_0_0_n_n.rhsIdx_val_of_single rfl i c
/-- The right operand's free coordinate is the output's column. -/
theorem score_rhs_free (i : S8x50257.Idx) (c : dot_S8x128_S50257x128_S8x50257_1_1_0_0_n_n.contr.Idx) :
    (dot_S8x128_S50257x128_S8x50257_1_1_0_0_n_n.rhsIdx i c 0).val = (i 1).val := by
  unfold DotDims.rhsIdx
  rw [dif_neg (show ¬(0 : Fin S50257x128.rank) ∈ dot_S8x128_S50257x128_S8x50257_1_1_0_0_n_n.rhsBatch by decide), dif_pos (show (0 : Fin S50257x128.rank) ∈ dot_S8x128_S50257x128_S8x50257_1_1_0_0_n_n.rhsNonContracting by decide)]
  rfl
/-- Against the second table, contracted along ITS rows' coordinates: entry `(p, q)` sums row `p` against row `q` of the table. -/
theorem score_apply {φ₁ φ₂ : FTy} (a : FVec Ideal S8x128 φ₁) (b : FVec Ideal S50257x128 φ₂) (p : Fin 8) (q : Fin 50257) :
    matmul dot_S8x128_S50257x128_S8x50257_1_1_0_0_n_n none a b (constant (F := Ideal) S8x50257 .f32 0x00000000#32) (ix2 p q) = ∑ k : Fin 128, a (ix2 p k) * b (ix2 q k) := by
  simp only [matmul]
  rw [Ideal.matmul_constant_zero_apply, ← Equiv.sum_comp (contrEquiv1 dot_S8x128_S50257x128_S8x50257_1_1_0_0_n_n 128 rfl rfl).symm]
  refine Finset.sum_congr rfl fun k _ => ?_
  have hk := contrEquiv1_symm_val dot_S8x128_S50257x128_S8x50257_1_1_0_0_n_n 128 rfl rfl k
  have el : dot_S8x128_S50257x128_S8x50257_1_1_0_0_n_n.lhsIdx (ix2 p q) ((contrEquiv1 dot_S8x128_S50257x128_S8x50257_1_1_0_0_n_n 128 rfl rfl).symm k) = ix2 p k := funext fun ax => Fin.ext (by
    match ax with
    | ⟨0, _⟩ => exact score_lhs_row _ _
    | ⟨1, _⟩ => exact (score_lhs_col _ _).trans hk)
  have er : dot_S8x128_S50257x128_S8x50257_1_1_0_0_n_n.rhsIdx (ix2 p q) ((contrEquiv1 dot_S8x128_S50257x128_S8x50257_1_1_0_0_n_n 128 rfl rfl).symm k) = ix2 q k := funext fun ax => Fin.ext (by
    match ax with
    | ⟨1, _⟩ => exact (score_rhs_contr _ _).trans hk
    | ⟨0, _⟩ => exact score_rhs_free _ _)
  rw [el, er]

/-! ## The two reductions along a row -/

/-- Row `p` of the index a lane reduction inserts coordinate `k` into. -/
theorem lift_row (p : Fin 8) (k : Fin 50257) :
    reduces_S8x50257_S8.lift (ix1 p) k = ix2 p k :=
  funext fun ax => Fin.ext (by match ax with | ⟨0, _⟩ => rfl | ⟨1, _⟩ => rfl)

/-- The maximum along row `p`, folded from the accumulator's pattern (−∞). -/
theorem max_row (s : FVec Ideal S8x50257 .f32) (hφ : FKind.Formats .f32)
    (hacc : (0xFF800000#32 : BitVec 32) = FKind.maximumf.neutral .f32 hφ) (p : Fin 8) :
    multiReduction .maximumf [1] S8 s 0xFF800000#32 reduces_S8x50257_S8 hφ hacc (ix1 p) = rowMax (fun k => s (ix2 p k)) := by
  refine (Ideal.multiReduction_maximumf_single s 0xFF800000#32 reduces_S8x50257_S8 hφ hacc (ix1 p)).trans ?_
  unfold rowMax
  exact congrArg (fun f => (Finset.univ : Finset (Fin 50257)).fold max (Ideal.ofBits .f32 0xFF800000#32) f)
    (funext fun k => congrArg s (lift_row p k))

/-- The sum along row `p`. -/
theorem sum_row (s : FVec Ideal S8x50257 .f32) (hφ : FKind.Formats .f32)
    (hacc : (0x00000000#32 : BitVec 32) = FKind.add.neutral .f32 hφ) (p : Fin 8) :
    multiReduction .add [1] S8 s 0x00000000#32 reduces_S8x50257_S8 hφ hacc (ix1 p) = ∑ k : Fin 50257, s (ix2 p k) := by
  refine (Ideal.multiReduction_add_single s 0x00000000#32 reduces_S8x50257_S8 hφ hacc (ix1 p)).trans ?_
  exact Finset.sum_congr rfl fun k _ => congrArg s (lift_row p k)

/-- The exponential of a vector, entry by entry. -/
theorem exp_apply {s : Shape} {φ : FTy} (v : FVec Ideal s φ) (i : s.Idx) : exp v i = Ideal.exp (v i) := rfl
/-- The logarithm of a vector, entry by entry. -/
theorem log_apply {s : Shape} {φ : FTy} (v : FVec Ideal s φ) (i : s.Idx) : log v i = Ideal.log (v i) := rfl

/-! ## The body's two halves, and the payload as their composition -/

/-- The scores of the block's rows: the three products. -/
def blockScores (x0 : FVec Ideal S8x50257 .f32) (x1 : FVec Ideal S50257x128 .bf16) (x2 : FVec Ideal S128x128 .bf16)
    (x3 : FVec Ideal S50257x128 .bf16) : FVec Ideal S8x50257 .f32 :=
  matmul dot_S8x128_S50257x128_S8x50257_1_1_0_0_n_n none
    (truncf .bf16 (matmul dot_S8x128_S128x128_S8x128_1_0_0_1_n_n none
      (truncf .bf16 (matmul dot_S8x50257_S50257x128_S8x128_1_0_0_1_n_n none (truncf .bf16 x0 bitsLt_bf16_f32)
        (shapeCast S50257x128 x1 shapeCasts_S50257x128_S50257x128) (constant S8x128 .f32 0x00000000#32)) bitsLt_bf16_f32)
      (shapeCast S128x128 x2 shapeCasts_S128x128_S128x128) (constant S8x128 .f32 0x00000000#32)) bitsLt_bf16_f32)
    (shapeCast S50257x128 x3 shapeCasts_S50257x128_S50257x128) (constant S8x50257 .f32 0x00000000#32)

/-- The scores less their row maximum. -/
def blockShifted (s : FVec Ideal S8x50257 .f32) : FVec Ideal S8x50257 .f32 :=
  subf s (broadcastTo S8x50257 (shapeCast S8x1 (multiReduction .maximumf [1] S8 s 0xFF800000#32 reduces_S8x50257_S8 (.inl rfl) rfl)
    shapeCasts_S8_S8x1) broadcasts_S8x1_S8x50257)

/-- The log-softmax of each row of a block of scores, as the body computes it. -/
def blockLogSoftmax (s : FVec Ideal S8x50257 .f32) : FVec Ideal S8x50257 .f32 :=
  subf (blockShifted s) (broadcastTo S8x50257 (log (shapeCast S8x1
    (multiReduction .add [1] S8 (exp (blockShifted s)) 0x00000000#32 reduces_S8x50257_S8 (.inl rfl) rfl) shapeCasts_S8_S8x1))
    broadcasts_S8x1_S8x50257)

/-- The body's one stored value is the log-softmax of the block's scores. -/
theorem payload_eq (x0 : Vec Ideal S8x50257 .f32) (x1 : Vec Ideal S50257x128 .bf16) (x2 : Vec Ideal S128x128 .bf16)
    (x3 : Vec Ideal S50257x128 .bf16) : k0_pay1 (F := Ideal) x0 x1 x2 x3 = blockLogSoftmax (blockScores x0 x1 x2 x3) := rfl

/-- Row `p` of the block's scores is `scoreRow` of row `p` of the block. -/
theorem blockScores_apply (x0 : FVec Ideal S8x50257 .f32) (x1 : FVec Ideal S50257x128 .bf16) (x2 : FVec Ideal S128x128 .bf16)
    (x3 : FVec Ideal S50257x128 .bf16) (p : Fin 8) (j : Fin 50257) :
    blockScores x0 x1 x2 x3 (ix2 p j) = scoreRow (fun v => x0 (ix2 p v)) x1 x2 x3 j := by
  unfold blockScores scoreRow
  refine (score_apply _ _ p j).trans (Finset.sum_congr rfl fun k _ => ?_)
  refine congrArg₂ (· * ·) ?_ (congrArg x3 (Shape.reshapeEquiv_self _ _))
  unfold metricRow
  refine (metric_apply _ _ p k).trans (Finset.sum_congr rfl fun l _ => ?_)
  refine congrArg₂ (· * ·) ?_ (congrArg x2 (Shape.reshapeEquiv_self _ _))
  unfold embedRow
  refine (embed_apply _ _ p l).trans (Finset.sum_congr rfl fun v _ => ?_)
  exact congrArg₂ (· * ·) rfl (congrArg x1 (Shape.reshapeEquiv_self _ _))

/-- Row `p` of the shifted scores. -/
theorem blockShifted_apply (s : FVec Ideal S8x50257 .f32) (p : Fin 8) (j : Fin 50257) :
    blockShifted s (ix2 p j) = s (ix2 p j) - rowMax (fun k => s (ix2 p k)) := by
  unfold blockShifted
  refine congrArg (s (ix2 p j) - ·) ?_
  exact (column_broadcast_apply _ shapeCasts_S8_S8x1 broadcasts_S8x1_S8x50257 p j).trans (max_row s _ _ p)

/-- Row `p` of the block's log-softmax is `logSoftmaxRow` of row `p` of the scores. -/
theorem blockLogSoftmax_apply (s : FVec Ideal S8x50257 .f32) (p : Fin 8) (j : Fin 50257) :
    blockLogSoftmax s (ix2 p j) = logSoftmaxRow (fun k => s (ix2 p k)) j := by
  unfold blockLogSoftmax logSoftmaxRow
  refine congrArg₂ (· - ·) (blockShifted_apply s p j) ?_
  refine (broadcastTo_a1_ab_apply _ broadcasts_S8x1_S8x50257 p j).trans ?_
  refine (log_apply _ _).trans (congrArg Ideal.log ((shapeCast_a_a1_apply _ shapeCasts_S8_S8x1 p 0).trans ?_))
  refine (sum_row _ _ _ p).trans (Finset.sum_congr rfl fun k _ => ?_)
  exact (exp_apply _ _).trans (congrArg Ideal.exp (blockShifted_apply s p k))

/-- The body's stored value at row `p`, word `j`: the log-softmax of the scores of row `p` of the block. -/
theorem payload_apply (x0 : Vec Ideal S8x50257 .f32) (x1 : Vec Ideal S50257x128 .bf16) (x2 : Vec Ideal S128x128 .bf16)
    (x3 : Vec Ideal S50257x128 .bf16) (p : Fin 8) (j : Fin 50257) :
    k0_pay1 (F := Ideal) x0 x1 x2 x3 (ix2 p j) = logSoftmaxRow (scoreRow (fun v => x0 (ix2 p v)) x1 x2 x3) j := by
  rw [payload_eq]
  refine (blockLogSoftmax_apply _ p j).trans ?_
  exact congrArg (fun s => logSoftmaxRow s j) (funext fun k => blockScores_apply x0 x1 x2 x3 p k)

end Cert.SkipGram.KernelRow

end
-- ==== Proof.KernelArray.lean ====
/-
  From the blocks to the array: what the kernel's result holds after the run.

  The grid has 128 points. At point `t` the input window stages rows `8t … 8t + 7` of the input, the three table
  windows stage their whole arrays (the embedding table, the metric and the second table, each narrowed to bf16 by a
  host operation before the region — the identity on extended reals), and the output window writes back rows
  `8t … 8t + 7` of the result. Row `p` of the block written at `t` is the log-softmax of the scores of row `8t + p` of
  the input (KernelRow), that is block `t` of `result`; the 128 blocks tile the 1024 rows, so the array ends at `result`.
-/
import proofs.«128333_j60833916781031_2_alg».proof.Proof.Gen.KernelIdeal.Value
import proofs.«128333_j60833916781031_2_alg».proof.Proof.KernelRow
import Idealize.ShloMosaic.Lib.StableHlo.Run

noncomputable section

namespace Cert.SkipGram.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SkipGram Cert.SkipGram.KernelRow

variable (m : (ℓ : Loc nD τ sig) → Buf (Elt Ideal) ℓ) (ρ : Dev nD → PrngReg)

theorem zero_offsets : (![0, 0] : Fin 2 → Nat) = fun _ => 0 := funext fun a => by fin_cases a <;> rfl

/-! ## The printed index maps over the grid -/

/-- The input and output windows move down the rows with the point; the table windows stay at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the block at point `t` is row `8t + p` of the array. -/
def blockRow (t : Fin cfg0.N) (p : Fin 8) : Fin 1024 :=
  ⟨8 * t.val + p.val, by have ht : t.val < 128 := lt_of_lt_of_eq t.isLt N_0; have := p.isLt; omega⟩

/-! ## The arrays the table windows stage: the arguments, narrowed by the host -/

/-- The embedding table as the region finds it is the third argument. -/
theorem staged_embed (c : Dev nD) :
    (V m c main_v0 : S50257x128.Idx → EReal) = (m ((c : Thread nD τ).loc main_arg2) : S50257x128.Idx → EReal) := by
  have e : (V m c main_v0 : S50257x128.Idx → EReal)
      = (truncf (F := Ideal) .bf16 (m ((c : Thread nD τ).loc main_arg2) : FVec Ideal S50257x128 .f32) bitsLt_bf16_f32 : S50257x128.Idx → EReal) := by
    dsimp only [V, hostOps0]; after_results
  exact e

/-- The second table as the region finds it is the fourth argument. -/
theorem staged_neg (c : Dev nD) :
    (V m c main_v1 : S50257x128.Idx → EReal) = (m ((c : Thread nD τ).loc main_arg3) : S50257x128.Idx → EReal) := by
  have e : (V m c main_v1 : S50257x128.Idx → EReal)
      = (truncf (F := Ideal) .bf16 (m ((c : Thread nD τ).loc main_arg3) : FVec Ideal S50257x128 .f32) bitsLt_bf16_f32 : S50257x128.Idx → EReal) := by
    dsimp only [V, hostOps0]; after_results
  exact e

/-- The metric as the region finds it is the second argument. -/
theorem staged_metric (c : Dev nD) :
    (V m c main_v2 : S128x128.Idx → EReal) = (m ((c : Thread nD τ).loc main_arg1) : S128x128.Idx → EReal) := by
  have e : (V m c main_v2 : S128x128.Idx → EReal)
      = (truncf (F := Ideal) .bf16 (m ((c : Thread nD τ).loc main_arg1) : FVec Ideal S128x128 .f32) bitsLt_bf16_f32 : S128x128.Idx → EReal) := by
    dsimp only [V, hostOps0]; after_results
  exact e

/-! ## Each window's block at a point, read where the rectangle says -/

/-- The input window's block at `t`: rows `8t … 8t + 7` of the input. -/
theorem input_block (c : Dev nD) (t : Fin cfg0.N) (p : Fin 8) (v : Fin 50257) :
    (iblk m c 0 t : Vec Ideal S8x50257 .f32) (ix2 p v) = (V m c main_arg0 : S1024x50257.Idx → EReal) (ix2 (blockRow t p) v) := by
  obtain ⟨h0, h1, -⟩ := index_facts t
  unfold iblk
  rw [View.read_apply]
  show V m c main_arg0 _ = V m c main_arg0 _
  refine congrArg (V m c main_arg0 : S1024x50257.Idx → EReal) (funext fun a => Fin.ext ?_)
  match a with
  | ⟨0, _⟩ => show win0_0.index t (0 : Fin 2) * 8 + 1 * p.val = 8 * t.val + p.val; rw [h0]; omega
  | ⟨1, _⟩ => show win0_0.index t (1 : Fin 2) * 50257 + 1 * v.val = v.val; rw [h1]; omega

/-- The embedding table's window holds the whole table at every point. -/
theorem embed_block (c : Dev nD) (t : Fin cfg0.N) :
    (iblk m c 1 t : Vec Ideal S50257x128 .bf16) = (V m c main_v0 : S50257x128.Idx → EReal) := by
  obtain ⟨-, -, h0, h1, -⟩ := index_facts t
  funext y
  unfold iblk
  rw [View.read_apply]
  show V m c main_v0 _ = V m c main_v0 _
  refine congrArg (V m c main_v0 : S50257x128.Idx → EReal) (funext fun a => Fin.ext ?_)
  match a with
  | ⟨0, _⟩ => show win0_1.index t (0 : Fin 2) * 50257 + 1 * (y 0).val = (y 0).val; rw [h0]; omega
  | ⟨1, _⟩ => show win0_1.index t (1 : Fin 2) * 128 + 1 * (y 1).val = (y 1).val; rw [h1]; omega

/-- The metric's window holds the whole metric at every point. -/
theorem metric_block (c : Dev nD) (t : Fin cfg0.N) :
    (iblk m c 2 t : Vec Ideal S128x128 .bf16) = (V m c main_v2 : S128x128.Idx → EReal) := by
  obtain ⟨-, -, -, -, h0, h1, -⟩ := index_facts t
  funext y
  unfold iblk
  rw [View.read_apply]
  show V m c main_v2 _ = V m c main_v2 _
  refine congrArg (V m c main_v2 : S128x128.Idx → EReal) (funext fun a => Fin.ext ?_)
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

/-- The second table's window holds the whole table at every point. -/
theorem neg_block (c : Dev nD) (t : Fin cfg0.N) :
    (iblk m c 3 t : Vec Ideal S50257x128 .bf16) = (V m c main_v1 : S50257x128.Idx → EReal) := by
  obtain ⟨-, -, -, -, -, -, h0, h1, -⟩ := index_facts t
  funext y
  unfold iblk
  rw [View.read_apply]
  show V m c main_v1 _ = V m c main_v1 _
  refine congrArg (V m c main_v1 : S50257x128.Idx → EReal) (funext fun a => Fin.ext ?_)
  match a with
  | ⟨0, _⟩ => show win0_3.index t (0 : Fin 2) * 50257 + 1 * (y 0).val = (y 0).val; rw [h0]; omega
  | ⟨1, _⟩ => show win0_3.index t (1 : Fin 2) * 128 + 1 * (y 1).val = (y 1).val; rw [h1]; omega

/-! ## What a point writes back, and the cover -/

/-- The result as the region's entry contents give it. -/
abbrev entryResult (c : Dev nD) : Rows :=
  result (V m c main_arg0 : S1024x50257.Idx → EReal) (V m c main_v2 : S128x128.Idx → EReal)
    (V m c main_v0 : S50257x128.Idx → EReal) (V m c main_v1 : S50257x128.Idx → EReal)

/-- WHAT POINT `t` WRITES BACK is block `t` of the result. -/
theorem flushed_eq (c : Dev nD) (t : Fin cfg0.N) :
    (dats m 0 c).flushed 4 t = ((cfg0.win 4).blk t).view.read (Elt Ideal) (entryResult m c) := by
  obtain ⟨-, -, -, -, -, -, -, -, h0, h1⟩ := index_facts t
  rw [Cert.KernelIdeal.Value.flushed4]
  unfold out0_4
  rw [View.canon_unit_zero zero_offsets]
  simp only [View.ld_unit_zero (S := S8x50257) zero_offsets, View.ld_unit_zero (S := S50257x128) zero_offsets,
    View.ld_unit_zero (S := S128x128) zero_offsets]
  funext y
  obtain ⟨p, j, rfl⟩ : ∃ (p : Fin 8) (j : Fin 50257), y = ix2 p j := ⟨y 0, y 1, eq_ix2 y⟩
  have hemb : ((cfg0.win 4).blk t).view.emb (ix2 p j) = (ix2 (blockRow t p) j : S1024x50257.Idx) := by
    funext a; apply Fin.ext
    match a with
    | ⟨0, _⟩ => show win0_4.index t (0 : Fin 2) * 8 + 1 * p.val = 8 * t.val + p.val; rw [h0]; omega
    | ⟨1, _⟩ => show win0_4.index t (1 : Fin 2) * 50257 + 1 * j.val = j.val; rw [h1]; omega
  show k0_pay1 (F := Ideal) (iblk m c 0 t) (iblk m c 1 t) (iblk m c 2 t) (iblk m c 3 t) (ix2 p j)
    = entryResult m c (((cfg0.win 4).blk t).view.emb (ix2 p j))
  rw [hemb]
  refine (payload_apply (iblk m c 0 t) (iblk m c 1 t) (iblk m c 2 t) (iblk m c 3 t) p j).trans ?_
  show _ = logSoftmaxRow (scoreRow (fun v => (V m c main_arg0 : S1024x50257.Idx → EReal) (ix2 (blockRow t p) v))
    (V m c main_v0 : S50257x128.Idx → EReal) (V m c main_v2 : S128x128.Idx → EReal) (V m c main_v1 : S50257x128.Idx → EReal)) j
  rw [embed_block m c t, metric_block m c t, neg_block m c t]
  exact congrArg (fun x => logSoftmaxRow (scoreRow x (V m c main_v0 : S50257x128.Idx → EReal)
    (V m c main_v2 : S128x128.Idx → EReal) (V m c main_v1 : S50257x128.Idx → EReal)) j) (funext fun v => input_block m c t p v)

/-- An index of the array is in point `t`'s block iff each coordinate is in the block's range on its axis. -/
theorem mem_block (t : Fin cfg0.N) (i : S1024x50257.Idx) :
    i ∈ ((cfg0.win 4).blk t).view.set ↔ ∀ a : Fin 2, win0_4.index t a * S8x50257.size a ≤ (i a).val ∧ (i a).val < win0_4.index t a * S8x50257.size a + S8x50257.size a := by
  show i ∈ ((View.whole main_v3).slice (win0_4.rect t)).set ↔ _
  rw [View.set_slice_whole, Rect.mem_set_unit]
  exact Iff.rfl

/-- Every index of the result is in the block of the point its row falls in. -/
theorem covered (i : S1024x50257.Idx) :
    ∃ t : Fin cfg0.N, (cfg0.win 4).flush t = true ∧ i ∈ ((cfg0.win 4).blk t).view.set := by
  have hN : cfg0.N = 128 := N_0
  have hi0 : (i 0).val < 1024 := idx2_lt0 i
  have hi1 : (i 1).val < 50257 := idx2_lt1 i
  let t : Fin cfg0.N := ⟨(i 0).val / 8, by rw [hN]; omega⟩
  obtain ⟨-, -, -, -, -, -, -, -, h0, h1⟩ := index_facts t
  have ht : t.val = (i 0).val / 8 := rfl
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; rw [h0, ht]; omega
  | ⟨1, _⟩ => show win0_4.index t (1 : Fin 2) * 50257 ≤ (i 1).val ∧ (i 1).val < win0_4.index t (1 : Fin 2) * 50257 + 50257; rw [h1]; omega

/-- THE ARRAY after the run is `result` of the argument arrays. -/
theorem final (c : Dev nD) :
    (dats m 0 c).arrAt 4 cfg0.N = result (m ((c : Thread nD τ).loc main_arg0) : S1024x50257.Idx → EReal)
      (m ((c : Thread nD τ).loc main_arg1) : S128x128.Idx → EReal) (m ((c : Thread nD τ).loc main_arg2) : S50257x128.Idx → EReal)
      (m ((c : Thread nD τ).loc main_arg3) : S50257x128.Idx → EReal) := by
  refine ((dats m 0 c).arrAt_eq_of_cover 4 (entryResult m c) (fun t _ => flushed_eq m c t) covered).trans ?_
  show result (V m c main_arg0 : S1024x50257.Idx → EReal) (V m c main_v2 : S128x128.Idx → EReal)
    (V m c main_v0 : S50257x128.Idx → EReal) (V m c main_v1 : S50257x128.Idx → EReal) = _
  rw [staged_embed m c, staged_neg m c, staged_metric m c, V_main_arg0 m c]

/-- The kernel's run: the result array ends at `result` of the arguments, the arguments unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0) : S1024x50257.Idx → EReal)
        (m ((c : Thread nD τ).loc main_arg1) : S128x128.Idx → EReal) (m ((c : Thread nD τ).loc main_arg2) : S50257x128.Idx → EReal)
        (m ((c : Thread nD τ).loc main_arg3) : S50257x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.SkipGram.KernelArray

end
-- ==== Proof.ReferenceRows.lean ====
/-
  The reference's pure stages, each read at an index.

  The reference multiplies the whole input by the embedding table, by the metric and by the transposed second table
  (three host contractions: each entry a sum over the contracted coordinate), then takes `log_softmax` along the rows:
  the row maxima (a host reduction from −∞, and once more the maximum with −∞, which changes nothing), the shifted
  scores, the row sums of their exponentials (a host reduction from 0), the logarithm, the second shift. Read at row `r`
  and word `j` this is `logSoftmaxRow` of the scores of row `r` of the input: `result`.
-/
import proofs.«128333_j60833916781031_2_alg».proof.Proof.Gen.ReferenceIdeal
import proofs.«128333_j60833916781031_2_alg».proof.Proof.SkipGramScores
import proofs.«128333_j60833916781031_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

namespace Cert.SkipGram.ReferenceRows

open Cert.ReferenceIdeal Cert.ReferenceIdeal.Gen Idealize.ShloMosaic Idealize.ShloMosaic.ValueIdx Idealize.ShloMosaic.KeepdimsColumn
open Cert.SkipGram
open scoped BigOperators

/-! ## The stages, as functions of the argument arrays -/

section Stages
variable {F : FTy → Type} [FloatOps F]

/-- The scores: the three host contractions. -/
def scores (x0 : FVec F S1024x50257 .f32) (x1 : FVec F S128x128 .f32) (x2 x3 : FVec F S50257x128 .f32) : FVec F S1024x50257 .f32 :=
  Host.dotGeneral dot_S1024x128_S128x50257_S1024x50257_1_0_0_1_n_n none
    (Host.dotGeneral dot_S1024x128_S128x128_S1024x128_1_0_0_1_n_n none
      (Host.dotGeneral dot_S1024x50257_S50257x128_S1024x128_1_0_0_1_n_n none x0 x2) x1)
    (transpose S128x50257 [1, 0] x3 transposes_S50257x128_S128x50257_1_0)

/-- The row maxima, as `log_softmax` takes them. -/
def rowMaxima (s : FVec F S1024x50257 .f32) : FVec F S1024 .f32 :=
  maximumf (broadcastInDim S1024 ![] bcast_S_S1024 (constant (F := F) S_ .f32 0xFF800000#32))
    (Host.reduce (FloatOps.maximumf (F := F) (φ := .f32)) s (constant (F := F) S_ .f32 0xFF800000#32) reducesTo_S1024x50257_S1024_d1 h_S_)

/-- The scores less their row maximum. -/
def shifted (s : FVec F S1024x50257 .f32) : FVec F S1024x50257 .f32 :=
  subf s (broadcastInDim S1024x50257 ![0, 1] bcast_S1024x1_S1024x50257_0_1
    (broadcastInDim S1024x1 ![0] bcast_S1024_S1024x1_0 (rowMaxima s)))

/-- The log-softmax along the rows. -/
def logSoftmax (s : FVec F S1024x50257 .f32) : FVec F S1024x50257 .f32 :=
  subf (shifted s) (broadcastInDim S1024x50257 ![0, 1] bcast_S1024x1_S1024x50257_0_1
    (Host.log (broadcastInDim S1024x1 ![0] bcast_S1024_S1024x1_0
      (Host.reduceAdd (F := F) (Host.exp (shifted s)) (constant (F := F) S_ .f32 0x00000000#32) reducesTo_S1024x50257_S1024_d1 h_S_))))

end Stages

/-! ## The three contractions, each entry a sum over the contracted coordinate -/

/-- The left operand's row coordinate is the output's. -/
theorem embed_lhs_row (i : S1024x128.Idx) (c : dot_S1024x50257_S50257x128_S1024x128_1_0_0_1_n_n.contr.Idx) :
    (dot_S1024x50257_S50257x128_S1024x128_1_0_0_1_n_n.lhsIdx i c 0).val = (i 0).val := by
  unfold DotDims.lhsIdx
  rw [dif_neg (show ¬(0 : Fin S1024x50257.rank) ∈ dot_S1024x50257_S50257x128_S1024x128_1_0_0_1_n_n.lhsBatch by decide), dif_pos (show (0 : Fin S1024x50257.rank) ∈ dot_S1024x50257_S50257x128_S1024x128_1_0_0_1_n_n.lhsNonContracting by decide)]
  rfl
/-- The left operand's column coordinate is the contracted one. -/
theorem embed_lhs_col (i : S1024x128.Idx) (c : dot_S1024x50257_S50257x128_S1024x128_1_0_0_1_n_n.contr.Idx) :
    (dot_S1024x50257_S50257x128_S1024x128_1_0_0_1_n_n.lhsIdx i c 1).val = (c ⟨0, by decide⟩).val :=
  dot_S1024x50257_S50257x128_S1024x128_1_0_0_1_n_n.lhsIdx_val_of_single rfl i c
/-- The right operand's contracted coordinate. -/
theorem embed_rhs_contr (i : S1024x128.Idx) (c : dot_S1024x50257_S50257x128_S1024x128_1_0_0_1_n_n.contr.Idx) :
    (dot_S1024x50257_S50257x128_S1024x128_1_0_0_1_n_n.rhsIdx i c 0).val = (c ⟨0, by decide⟩).val :=
  dot_S1024x50257_S50257x128_S1024x128_1_0_0_1_n_n.rhsIdx_val_of_single rfl i c
/-- The right operand's free coordinate is the output's column. -/
theorem embed_rhs_free (i : S1024x128.Idx) (c : dot_S1024x50257_S50257x128_S1024x128_1_0_0_1_n_n.contr.Idx) :
    (dot_S1024x50257_S50257x128_S1024x128_1_0_0_1_n_n.rhsIdx i c 1).val = (i 1).val := by
  unfold DotDims.rhsIdx
  rw [dif_neg (show ¬(1 : Fin S50257x128.rank) ∈ dot_S1024x50257_S50257x128_S1024x128_1_0_0_1_n_n.rhsBatch by decide), dif_pos (show (1 : Fin S50257x128.rank) ∈ dot_S1024x50257_S50257x128_S1024x128_1_0_0_1_n_n.rhsNonContracting by decide)]
  rfl
/-- The input times the embedding table: entry `(p, q)` sums row `p` of the input against column `q` of the table. -/
theorem embed_apply {φ₁ φ₂ : FTy} (a : FVec Ideal S1024x50257 φ₁) (b : FVec Ideal S50257x128 φ₂) (p : Fin 1024) (q : Fin 128) :
    Host.dotGeneral (F := Ideal) dot_S1024x50257_S50257x128_S1024x128_1_0_0_1_n_n none a b (ix2 p q) = ∑ k : Fin 50257, a (ix2 p k) * b (ix2 k q) := by
  simp only [Host.dotGeneral]
  rw [Ideal.dotGeneral_apply, ← Equiv.sum_comp (contrEquiv1 dot_S1024x50257_S50257x128_S1024x128_1_0_0_1_n_n 50257 rfl rfl).symm]
  refine Finset.sum_congr rfl fun k _ => ?_
  have hk := contrEquiv1_symm_val dot_S1024x50257_S50257x128_S1024x128_1_0_0_1_n_n 50257 rfl rfl k
  have el : dot_S1024x50257_S50257x128_S1024x128_1_0_0_1_n_n.lhsIdx (ix2 p q) ((contrEquiv1 dot_S1024x50257_S50257x128_S1024x128_1_0_0_1_n_n 50257 rfl rfl).symm k) = ix2 p k := funext fun ax => Fin.ext (by
    match ax with
    | ⟨0, _⟩ => exact embed_lhs_row _ _
    | ⟨1, _⟩ => exact (embed_lhs_col _ _).trans hk)
  have er : dot_S1024x50257_S50257x128_S1024x128_1_0_0_1_n_n.rhsIdx (ix2 p q) ((contrEquiv1 dot_S1024x50257_S50257x128_S1024x128_1_0_0_1_n_n 50257 rfl rfl).symm k) = ix2 k q := funext fun ax => Fin.ext (by
    match ax with
    | ⟨0, _⟩ => exact (embed_rhs_contr _ _).trans hk
    | ⟨1, _⟩ => exact embed_rhs_free _ _)
  rw [el, er]

/-- The left operand's row coordinate is the output's. -/
theorem metric_lhs_row (i : S1024x128.Idx) (c : dot_S1024x128_S128x128_S1024x128_1_0_0_1_n_n.contr.Idx) :
    (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- The left operand's column coordinate is the contracted one. -/
theorem metric_lhs_col (i : S1024x128.Idx) (c : dot_S1024x128_S128x128_S1024x128_1_0_0_1_n_n.contr.Idx) :
    (dot_S1024x128_S128x128_S1024x128_1_0_0_1_n_n.lhsIdx i c 1).val = (c ⟨0, by decide⟩).val :=
  dot_S1024x128_S128x128_S1024x128_1_0_0_1_n_n.lhsIdx_val_of_single rfl i c
/-- The right operand's contracted coordinate. -/
theorem metric_rhs_contr (i : S1024x128.Idx) (c : dot_S1024x128_S128x128_S1024x128_1_0_0_1_n_n.contr.Idx) :
    (dot_S1024x128_S128x128_S1024x128_1_0_0_1_n_n.rhsIdx i c 0).val = (c ⟨0, by decide⟩).val :=
  dot_S1024x128_S128x128_S1024x128_1_0_0_1_n_n.rhsIdx_val_of_single rfl i c
/-- The right operand's free coordinate is the output's column. -/
theorem metric_rhs_free (i : S1024x128.Idx) (c : dot_S1024x128_S128x128_S1024x128_1_0_0_1_n_n.contr.Idx) :
    (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
/-- Times the metric. -/
theorem metric_apply {φ₁ φ₂ : FTy} (a : FVec Ideal S1024x128 φ₁) (b : FVec Ideal S128x128 φ₂) (p : Fin 1024) (q : Fin 128) :
    Host.dotGeneral (F := Ideal) dot_S1024x128_S128x128_S1024x128_1_0_0_1_n_n none a b (ix2 p q) = ∑ k : Fin 128, a (ix2 p k) * b (ix2 k q) := by
  simp only [Host.dotGeneral]
  rw [Ideal.dotGeneral_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun ax => Fin.ext (by
    match ax with
    | ⟨0, _⟩ => exact metric_lhs_row _ _
    | ⟨1, _⟩ => exact (metric_lhs_col _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun ax => Fin.ext (by
    match ax with
    | ⟨0, _⟩ => exact (metric_rhs_contr _ _).trans hk
    | ⟨1, _⟩ => exact metric_rhs_free _ _)
  rw [el, er]

/-- The left operand's row coordinate is the output's. -/
theorem score_lhs_row (i : S1024x50257.Idx) (c : dot_S1024x128_S128x50257_S1024x50257_1_0_0_1_n_n.contr.Idx) :
    (dot_S1024x128_S128x50257_S1024x50257_1_0_0_1_n_n.lhsIdx i c 0).val = (i 0).val := by
  unfold DotDims.lhsIdx
  rw [dif_neg (show ¬(0 : Fin S1024x128.rank) ∈ dot_S1024x128_S128x50257_S1024x50257_1_0_0_1_n_n.lhsBatch by decide), dif_pos (show (0 : Fin S1024x128.rank) ∈ dot_S1024x128_S128x50257_S1024x50257_1_0_0_1_n_n.lhsNonContracting by decide)]
  rfl
/-- The left operand's column coordinate is the contracted one. -/
theorem score_lhs_col (i : S1024x50257.Idx) (c : dot_S1024x128_S128x50257_S1024x50257_1_0_0_1_n_n.contr.Idx) :
    (dot_S1024x128_S128x50257_S1024x50257_1_0_0_1_n_n.lhsIdx i c 1).val = (c ⟨0, by decide⟩).val :=
  dot_S1024x128_S128x50257_S1024x50257_1_0_0_1_n_n.lhsIdx_val_of_single rfl i c
/-- The right operand's contracted coordinate. -/
theorem score_rhs_contr (i : S1024x50257.Idx) (c : dot_S1024x128_S128x50257_S1024x50257_1_0_0_1_n_n.contr.Idx) :
    (dot_S1024x128_S128x50257_S1024x50257_1_0_0_1_n_n.rhsIdx i c 0).val = (c ⟨0, by decide⟩).val :=
  dot_S1024x128_S128x50257_S1024x50257_1_0_0_1_n_n.rhsIdx_val_of_single rfl i c
/-- The right operand's free coordinate is the output's column. -/
theorem score_rhs_free (i : S1024x50257.Idx) (c : dot_S1024x128_S128x50257_S1024x50257_1_0_0_1_n_n.contr.Idx) :
    (dot_S1024x128_S128x50257_S1024x50257_1_0_0_1_n_n.rhsIdx i c 1).val = (i 1).val := by
  unfold DotDims.rhsIdx
  rw [dif_neg (show ¬(1 : Fin S128x50257.rank) ∈ dot_S1024x128_S128x50257_S1024x50257_1_0_0_1_n_n.rhsBatch by decide), dif_pos (show (1 : Fin S128x50257.rank) ∈ dot_S1024x128_S128x50257_S1024x50257_1_0_0_1_n_n.rhsNonContracting by decide)]
  rfl
/-- Times the transposed second table. -/
theorem score_apply {φ₁ φ₂ : FTy} (a : FVec Ideal S1024x128 φ₁) (b : FVec Ideal S128x50257 φ₂) (p : Fin 1024) (q : Fin 50257) :
    Host.dotGeneral (F := Ideal) dot_S1024x128_S128x50257_S1024x50257_1_0_0_1_n_n none a b (ix2 p q) = ∑ k : Fin 128, a (ix2 p k) * b (ix2 k q) := by
  simp only [Host.dotGeneral]
  rw [Ideal.dotGeneral_apply, ← Equiv.sum_comp (contrEquiv1 dot_S1024x128_S128x50257_S1024x50257_1_0_0_1_n_n 128 rfl rfl).symm]
  refine Finset.sum_congr rfl fun k _ => ?_
  have hk := contrEquiv1_symm_val dot_S1024x128_S128x50257_S1024x50257_1_0_0_1_n_n 128 rfl rfl k
  have el : dot_S1024x128_S128x50257_S1024x50257_1_0_0_1_n_n.lhsIdx (ix2 p q) ((contrEquiv1 dot_S1024x128_S128x50257_S1024x50257_1_0_0_1_n_n 128 rfl rfl).symm k) = ix2 p k := funext fun ax => Fin.ext (by
    match ax with
    | ⟨0, _⟩ => exact score_lhs_row _ _
    | ⟨1, _⟩ => exact (score_lhs_col _ _).trans hk)
  have er : dot_S1024x128_S128x50257_S1024x50257_1_0_0_1_n_n.rhsIdx (ix2 p q) ((contrEquiv1 dot_S1024x128_S128x50257_S1024x50257_1_0_0_1_n_n 128 rfl rfl).symm k) = ix2 k q := funext fun ax => Fin.ext (by
    match ax with
    | ⟨0, _⟩ => exact (score_rhs_contr _ _).trans hk
    | ⟨1, _⟩ => exact score_rhs_free _ _)
  rw [el, er]

/-- Row `r` of the scores is `scoreRow` of row `r` of the input. -/
theorem scores_apply (x0 : FVec Ideal S1024x50257 .f32) (x1 : FVec Ideal S128x128 .f32) (x2 x3 : FVec Ideal S50257x128 .f32)
    (r : Fin 1024) (j : Fin 50257) :
    scores x0 x1 x2 x3 (ix2 r j) = scoreRow (fun v => x0 (ix2 r v)) x2 x1 x3 j := by
  unfold scores scoreRow
  refine (score_apply _ _ r j).trans (Finset.sum_congr rfl fun k _ => ?_)
  refine congrArg₂ (· * ·) ?_ (transpose_ix2_apply x3 transposes_S50257x128_S128x50257_1_0 k j)
  unfold metricRow
  refine (metric_apply _ _ r k).trans (Finset.sum_congr rfl fun l _ => ?_)
  refine congrArg₂ (· * ·) ?_ rfl
  unfold embedRow
  exact embed_apply _ _ r l

/-! ## The reductions along a row -/

/-- The rows' last axis reduced away. -/
theorem reducesRows : S1024x50257.Reduces [1] S1024 := by decide

/-- Row `r` of the index a row reduction inserts coordinate `k` into. -/
theorem lift_row (r : Fin 1024) (k : Fin 50257) : reducesRows.lift (ix1 r) k = ix2 r k :=
  funext fun ax => Fin.ext (by match ax with | ⟨0, _⟩ => rfl | ⟨1, _⟩ => rfl)

/-- The host's exponential and logarithm, entry by entry. -/
theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- The row maximum: the fold from −∞, and the maximum with −∞ once more. -/
theorem rowMaxima_apply (s : FVec Ideal S1024x50257 .f32) (r : Fin 1024) :
    rowMaxima s (ix1 r) = rowMax (fun k => s (ix2 r k)) := by
  unfold rowMaxima
  have h1 : broadcastInDim S1024 ![] bcast_S_S1024 (constant (F := Ideal) S_ .f32 0xFF800000#32) (ix1 r)
      = Ideal.ofBits .f32 0xFF800000#32 :=
    broadcastInDim_apply _ bcast_S_S1024 _ (ix1 r) ix0 (fun a => a.elim0)
  have h2 : Host.reduce (FloatOps.maximumf (F := Ideal) (φ := .f32)) s (constant (F := Ideal) S_ .f32 0xFF800000#32)
      reducesTo_S1024x50257_S1024_d1 h_S_ (ix1 r) = rowMax (fun k => s (ix2 r k)) := by
    refine (Host.reduce_eq_fold_single (FloatOps.maximumf (F := Ideal) (φ := .f32)) s _ reducesTo_S1024x50257_S1024_d1
      reducesRows h_S_ (ix1 r)).trans ?_
    unfold rowMax
    exact congrArg (fun f => (Finset.univ : Finset (Fin 50257)).fold max (Ideal.ofBits .f32 0xFF800000#32) f)
      (funext fun k => congrArg s (lift_row r k))
  exact (maximumf_apply _ _ _).trans ((congrArg₂ max h1 h2).trans (max_start_rowMax _))

/-- Row `r` of the shifted scores. -/
theorem shifted_apply (s : FVec Ideal S1024x50257 .f32) (r : Fin 1024) (j : Fin 50257) :
    shifted s (ix2 r j) = s (ix2 r j) - rowMax (fun k => s (ix2 r k)) := by
  unfold shifted
  refine (subf_apply _ _ _).trans (congrArg (s (ix2 r j) - ·) ?_)
  refine (broadcastInDim_a1_ab_apply _ bcast_S1024x1_S1024x50257_0_1 r j).trans ?_
  exact (broadcastInDim_a_a1_apply _ bcast_S1024_S1024x1_0 r 0).trans (rowMaxima_apply s r)

/-- The host's sum along row `r`, from 0. -/
theorem sum_row (y : FVec Ideal S1024x50257 .f32) (r : Fin 1024) :
    Host.reduceAdd (F := Ideal) y (constant (F := Ideal) S_ .f32 0x00000000#32) reducesTo_S1024x50257_S1024_d1 h_S_ (ix1 r)
      = ∑ k : Fin 50257, y (ix2 r k) := by
  simp only [Host.reduceAdd, Ideal.hostReduceAdd_def]
  rw [Ideal.hostReduceAdd_single reducesTo_S1024x50257_S1024_d1 reducesRows]
  show Ideal.ofBits .f32 0x00000000#32 + _ = _
  rw [Ideal.ofBits_zero_f32, zero_add]
  exact Finset.sum_congr rfl fun k _ => congrArg y (lift_row r k)

/-- Row `r` of the reference's log-softmax is `logSoftmaxRow` of row `r` of the scores. -/
theorem logSoftmax_apply (s : FVec Ideal S1024x50257 .f32) (r : Fin 1024) (j : Fin 50257) :
    logSoftmax s (ix2 r j) = logSoftmaxRow (fun k => s (ix2 r k)) j := by
  unfold logSoftmax logSoftmaxRow
  refine (subf_apply _ _ _).trans (congrArg₂ (· - ·) (shifted_apply s r j) ?_)
  refine (broadcastInDim_a1_ab_apply _ bcast_S1024x1_S1024x50257_0_1 r j).trans ?_
  refine (hostLog_apply _ _).trans (congrArg Ideal.log ?_)
  refine (broadcastInDim_a_a1_apply _ bcast_S1024_S1024x1_0 r 0).trans ?_
  refine (sum_row _ r).trans (Finset.sum_congr rfl fun k _ => ?_)
  exact (hostExp_apply _ _).trans (congrArg Ideal.exp (shifted_apply s r k))

/-- The reference's composed stages are `result` of the argument arrays (the embedding table is the third argument,
    the metric the second). -/
theorem logSoftmax_scores_eq (x0 : FVec Ideal S1024x50257 .f32) (x1 : FVec Ideal S128x128 .f32) (x2 x3 : FVec Ideal S50257x128 .f32) :
    logSoftmax (scores x0 x1 x2 x3) = result x0 x1 x2 x3 := by
  funext i
  obtain ⟨r, j, rfl⟩ : ∃ (r : Fin 1024) (j : Fin 50257), i = ix2 r j := ⟨i 0, i 1, eq_ix2 i⟩
  refine (logSoftmax_apply _ r j).trans ?_
  exact congrArg (fun s => logSoftmaxRow s j) (funext fun k => scores_apply x0 x1 x2 x3 r k)

end Cert.SkipGram.ReferenceRows

end
-- ==== Proof.ReferenceRun.lean ====
/-
  The reference's run, read back.

  The reference is a straight line of nineteen host operations: the three contractions (with the transpose of the second
  table before the third), then the operations of `log_softmax`, which the compiler inlines at its one call. Every weakly
  fair execution of it terminates, and the result buffer ends at the composition of the operations' pure functions on
  the argument arrays (`ReferenceRows.logSoftmax (ReferenceRows.scores …)`), the arguments unchanged.

  The inlined operations move a value between its tensor type and its buffer's type; at these literal buffers that
  transport is the identity. It is removed by rewriting, one small equation per place it occurs, never by unfolding
  the reductions over the 1024 × 50257 array beneath it.
-/
import proofs.«128333_j60833916781031_2_alg».proof.Proof.ReferenceRows
import Idealize.ShloMosaic.Lib.StableHlo.Run

noncomputable section

namespace Cert.SkipGram.ReferenceRun

open Cert.ReferenceIdeal Cert.ReferenceIdeal.Gen Idealize.ShloMosaic Idealize.ShloMosaic.TcCoe Idealize.SL.Sem Idealize.ShloMosaic.StableHlo
open Cert.SkipGram.ReferenceRows

variable {F : FTy → Type} [FloatOps F]

/-- The nineteen operations, in program order: the called function's stand at its call. -/
abbrev ops : List (HloOp τ sig (Elt F)) :=
  [ binary main_arg0 main_arg2 main_v0 ((fun l r => Host.dotGeneral dot_S1024x50257_S50257x128_S1024x128_1_0_0_1_n_n none l r) : (⟨S1024x50257, .f32⟩ : BufTy).Contents (Elt F) → (⟨S50257x128, .f32⟩ : BufTy).Contents (Elt F) → (⟨S1024x128, .f32⟩ : BufTy).Contents (Elt F)),
    binary main_v0 main_arg1 main_v1 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg3 main_v2 ((transpose S128x50257 [1, 0] · transposes_S50257x128_S128x50257_1_0) : (⟨S50257x128, .f32⟩ : BufTy).Contents (Elt F) → (⟨S128x50257, .f32⟩ : BufTy).Contents (Elt F)),
    binary main_v1 main_v2 main_v3 ((fun l r => Host.dotGeneral dot_S1024x128_S128x50257_S1024x50257_1_0_0_1_n_n none l r) : (⟨S1024x128, .f32⟩ : BufTy).Contents (Elt F) → (⟨S128x50257, .f32⟩ : BufTy).Contents (Elt F) → (⟨S1024x50257, .f32⟩ : BufTy).Contents (Elt F)),
    TRef.nullary (TRef.of (T := ⟨S_, .f32⟩) main_call0_cst) (constant S_ .f32 0xFF800000#32),
    TRef.binary (TRef.of (T := ⟨S1024x50257, .f32⟩) main_v3) (TRef.of (T := ⟨S_, .f32⟩) main_call0_cst) (TRef.of (T := ⟨S1024, .f32⟩) main_call0_v0) (fun x v => Host.reduce FloatOps.maximumf x v reducesTo_S1024x50257_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf,
    TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x50257, .f32⟩) main_call0_v4) (broadcastInDim S1024x50257 ![0, 1] bcast_S1024x1_S1024x50257_0_1),
    TRef.binary (TRef.of (T := ⟨S1024x50257, .f32⟩) main_v3) (TRef.of (T := ⟨S1024x50257, .f32⟩) main_call0_v4) (TRef.of (T := ⟨S1024x50257, .f32⟩) main_call0_v5) subf,
    TRef.unary (TRef.of (T := ⟨S1024x50257, .f32⟩) main_call0_v5) (TRef.of (T := ⟨S1024x50257, .f32⟩) main_call0_v6) Host.exp,
    TRef.nullary (TRef.of (T := ⟨S_, .f32⟩) main_call0_cst_1) (constant S_ .f32 0x00000000#32),
    TRef.binary (TRef.of (T := ⟨S1024x50257, .f32⟩) main_call0_v6) (TRef.of (T := ⟨S_, .f32⟩) main_call0_cst_1) (TRef.of (T := ⟨S1024, .f32⟩) main_call0_v7) (fun x v => Host.reduceAdd x v reducesTo_S1024x50257_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x50257, .f32⟩) main_call0_v10) (broadcastInDim S1024x50257 ![0, 1] bcast_S1024x1_S1024x50257_0_1),
    TRef.binary (TRef.of (T := ⟨S1024x50257, .f32⟩) main_call0_v5) (TRef.of (T := ⟨S1024x50257, .f32⟩) main_call0_v10) (TRef.of (T := ⟨S1024x50257, .f32⟩) main_v4) subf ]

/-- The program is that straight line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩

/-! ## The transport between a value's type and its buffer's type is the identity -/

/-- There and back, for any typed reference. -/
theorem ofBuf_toBuf {T : BufTy} (x : TRef sig T) (v : T.Contents (Elt F)) : x.ofBuf (x.toBuf v) = v := by
  obtain ⟨r, rfl, hd, hs⟩ := x
  rfl
/-- Out of the scores' buffer, which a plain operation of @main wrote. -/
theorem ofBuf_scores (v : (⟨S1024x50257, .f32⟩ : BufTy).Contents (Elt F)) :
    (TRef.of (T := ⟨S1024x50257, .f32⟩) main_v3).ofBuf v = v := rfl
/-- Into the result's buffer, which nothing reads back. -/
theorem toBuf_result (v : (⟨S1024x50257, .f32⟩ : BufTy).Contents (Elt F)) :
    (TRef.of (T := ⟨S1024x50257, .f32⟩) main_v4).toBuf v = v := rfl

/-! ## The run -/

set_option maxHeartbeats 1900000 in
/-- On every device, from any memory with zero counters: every weakly fair execution of the reference terminates with the
    result at the log-softmax of the scores of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = logSoftmax (scores (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (by
        after_results
        simp only [ofBuf_toBuf, ofBuf_scores, toBuf_result, logSoftmax, shifted, rowMaxima, scores]),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end Cert.SkipGram.ReferenceRun

end
-- ==== Proof.lean ====
/-
  Both programs compute, for every row `x` of the input, the log-softmax of its scores
  `s j = ∑ k, (∑ l, (∑ v, x v · E (v, l)) · M (l, k)) · N (j, k)`
  against the rows of the second table (`SkipGramScores.result`).

  The kernel does it eight rows at a time over a grid of 128 points, with the three tables resident: each point's
  block of the result is the log-softmax of the scores of its eight rows (KernelRow), and the 128 blocks tile the
  1024 rows (KernelArray). The reference does it on the whole arrays, transposing the second table before the
  third product and taking the maximum with −∞ once more than the kernel does (ReferenceRows, ReferenceRun). The two
  agree term by term: each product is the same finite sum over the contracted coordinate, the two row maxima are
  the same fold from −∞, and narrowing to bf16 is the identity on extended reals. No entry has to be finite: the
  argument never distributes a product over a sum and never cancels.

  The three frames are the programs' runs with the values dropped; the idealization rewrote nothing.
-/
import proofs.«128333_j60833916781031_2_alg».proof.Defs
import proofs.«128333_j60833916781031_2_alg».proof.Proof.Gen.Kernel
import proofs.«128333_j60833916781031_2_alg».proof.Proof.Gen.Kernel.Skeleton
import proofs.«128333_j60833916781031_2_alg».proof.Proof.Gen.Kernel.Launch
import proofs.«128333_j60833916781031_2_alg».proof.Proof.Gen.Kernel.Points
import proofs.«128333_j60833916781031_2_alg».proof.Proof.Gen.Kernel.Frame
import proofs.«128333_j60833916781031_2_alg».proof.Proof.Gen.KernelIdeal
import proofs.«128333_j60833916781031_2_alg».proof.Proof.Gen.KernelIdeal.Skeleton
import proofs.«128333_j60833916781031_2_alg».proof.Proof.Gen.KernelIdeal.Launch
import proofs.«128333_j60833916781031_2_alg».proof.Proof.Gen.KernelIdeal.Points
import proofs.«128333_j60833916781031_2_alg».proof.Proof.Gen.KernelIdeal.Frame
import proofs.«128333_j60833916781031_2_alg».proof.Proof.Gen.ReferenceIdeal
import proofs.«128333_j60833916781031_2_alg».proof.Proof.Gen.Pre_finite_inputs
import proofs.«128333_j60833916781031_2_alg».proof.Proof.KernelArray
import proofs.«128333_j60833916781031_2_alg».proof.Proof.ReferenceRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.SkipGram.ReferenceRun.run (F := Ideal) m ρ)

/-- Nothing was rewritten when the kernel was read over the extended reals. -/
theorem preserves : Cert.preserves_Kernel_KernelIdeal := trivial

/-- From memories that agree on the arguments the kernel's result array ends at `result` of them (KernelArray.run) and
    the reference's at its composed stages (ReferenceRun.run), which are `result` of the same arrays
    (ReferenceRows.logSoftmax_scores_eq). -/
theorem algebraic : Cert.algebraic_KernelIdeal_ReferenceIdeal := by
  intro m ρ m' ρ' _ hagree
  refine ⟨_, Cert.SkipGram.KernelArray.run m ρ, ?_⟩
  refine (θ_run Cert.ReferenceIdeal.defs _ _).mono (fun _ h c => ⟨(h c).1.trans ?_, (h c).2⟩)
    (Cert.SkipGram.ReferenceRun.run (F := Ideal) m' ρ')
  rw [Cert.SkipGram.ReferenceRows.logSoftmax_scores_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
